-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : IVec S2x625000 32) (main_arg2 : FVec F S128x128 .f32) (main_arg3 : FVec F S128x128 .f32) (main_arg4 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩

abbrev nBuf : Space → Nat
  | .hbm => 38
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S100000x128, .f32⟩
  | .hbm, ⟨20, _⟩ => ⟨S625000x1, .i32⟩
  | .hbm, ⟨21, _⟩ => ⟨S100000x128, .f32⟩
  | .hbm, ⟨22, _⟩ => ⟨S_, .f32⟩
  | .hbm, ⟨23, _⟩ => ⟨S625000, .f32⟩
  | .hbm, ⟨24, _⟩ => ⟨S_, .f32⟩
  | .hbm, ⟨25, _⟩ => ⟨S100000, .f32⟩
  | .hbm, ⟨26, _⟩ => ⟨S625000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S2x625000 : Shape := ⟨2, ![2, 625000]⟩
abbrev S128x128 : Shape := ⟨2, ![128, 128]⟩
abbrev S128 : Shape := ⟨1, ![128]⟩
abbrev S1x625000 : Shape := ⟨2, ![1, 625000]⟩
abbrev S625000 : Shape := ⟨1, ![625000]⟩
abbrev S_ : Shape := ⟨0, ![]⟩
abbrev S625000x1 : Shape := ⟨2, ![625000, 1]⟩
abbrev S625000x128 : Shape := ⟨2, ![625000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 42
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x625000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S1x625000, .i32⟩
  | .hbm, ⟨6, _⟩ => ⟨S625000, .i32⟩
  | .hbm, ⟨7, _⟩ => ⟨S1x625000, .i32⟩
  | .hbm, ⟨8, _⟩ => ⟨S625000, .i32⟩
  | .hbm, ⟨9, _⟩ => ⟨S_, .i32⟩
  | .hbm, ⟨10, _⟩ => ⟨S625000, .i32⟩
  | .hbm, ⟨11, _⟩ => ⟨S625000, .i1⟩
  | .hbm, ⟨12, _⟩ => ⟨S_, .i32⟩
  | .hbm, ⟨13, _⟩ => ⟨S625000, .i32⟩
  | .hbm, ⟨14, _⟩ => ⟨S625000, .i32⟩
  | .hbm, ⟨15, _⟩ => ⟨S625000, .i32⟩
  | .hbm, ⟨16, _⟩ => ⟨S625000x1, .i32⟩
  | .hbm, ⟨17, _⟩ => ⟨S625000x128, .f32⟩
  | .hbm, ⟨18, _⟩ => ⟨S_, .f32⟩
  | .hbm, ⟨19, _⟩ => ⟨S100000x128, .f32⟩
  | .hbm, ⟨20, _⟩ => ⟨S625000x1, .i32⟩
  | .hbm, ⟨21, _⟩ => ⟨S100000x128, .f32⟩
  | .hbm, ⟨22, _⟩ => ⟨S_, .f32⟩
  | .hbm, ⟨23, _⟩ => ⟨S625000, .f32⟩
  | .hbm, ⟨24, _⟩ => ⟨S_, .f32⟩
  | .hbm, ⟨25, _⟩ => ⟨S100000, .f32⟩
  | .hbm, ⟨26, _⟩ => ⟨S625000x1, .i32⟩
  | .hbm, ⟨27, _⟩ => ⟨S100000, .f32⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000x1, .f32⟩
  | .hbm, ⟨32, _⟩ => ⟨S100000x128, .f32⟩
  | .hbm, ⟨33, _⟩ => ⟨S100000x128, .f32⟩
  | .hbm, ⟨34, _⟩ => ⟨S128x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S128x128, .f32⟩
  | .hbm, ⟨40, _⟩ => ⟨S100000x128, .f32⟩
  | .hbm, ⟨41, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S625000_S625000x1_0 : S625000.BroadcastsInDim S625000x1 (![0] : Fin 1 → Fin S625000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  scatter_S100000_S625000x1_S625000_n_0_0_1_wf : ScatterDims.WF S100000 S625000x1 S625000 [] [0] [0] 1
  dot_S100000x128_S128x128_S100000x128_1_0_0_1_n_n_wf : DotDims.WF S100000x128 S128x128 S100000x128 [1] [0] [0] [1] [] []

variable [Facts₀]

def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf
def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.CombineSpec.lean ====
/-
  The result of the graph layer as ONE function of its arrays, index by index, on the extended reals.

  For node `i` and output feature `j`

      combine x nb ws wn b (i, j) = (Σ_k x[i,k] · ws[j,k]  +  Σ_k nb[i,k] · wn[j,k])  +  b[j]

  where `x` holds the node features, `nb` the mean of each node's incoming neighbours' features, `ws` and `wn` the
  two weight matrices (row `j` of a weight matrix produces output feature `j`: the linear maps are `x · wsᵀ` and
  `nb · wnᵀ`), and `b` the bias. Both programs compute exactly these three summands; they differ only in the order
  in which they add them, and addition of extended reals is commutative and associative at the infinities too
  (`⊥ + ⊤ = ⊥` whatever the grouping), so no finiteness of the inputs is used.
-/
import Idealize.ShloMosaic.PureOps.Ideal
import Idealize.ShloMosaic.Lib.ValueIdx

noncomputable section

namespace Cert.Sage

open Idealize.ShloMosaic Idealize.ShloMosaic.ValueIdx

/-- Node features and the result: 100000 nodes, 128 features each. -/
abbrev Nodes : Shape := ⟨2, ![100000, 128]⟩
/-- A weight matrix: output feature by input feature. -/
abbrev Weights : Shape := ⟨2, ![128, 128]⟩
/-- The bias: one entry per output feature. -/
abbrev Bias : Shape := ⟨1, ![128]⟩

/-- Output feature `j` of node `i`: the node's own features against row `j` of `ws`, plus its neighbour mean against
    row `j` of `wn`, plus the bias. -/
def combine (x nb : Nodes.Idx → EReal) (ws wn : Weights.Idx → EReal) (b : Bias.Idx → EReal) : Nodes.Idx → EReal :=
  fun i => ((∑ k : Fin 128, x (ix2 (i 0) k) * ws (ix2 (i 1) k)) + (∑ k : Fin 128, nb (ix2 (i 0) k) * wn (ix2 (i 1) k)))
    + b (ix1 (i 1))

/-- Adding the bias before or after the neighbour term is the same extended real. -/
theorem bias_then_neigh (s n c : EReal) : (s + c) + n = (s + n) + c := add_right_comm s c n

end Cert.Sage

end
-- ==== Proof.CombineBody.lean ====
/-
  What one grid point of the kernel stores, read at one entry.

  A point holds a block of 5000 nodes: their features `xb`, their neighbour means `nbb`, the two weight matrices
  already transposed (`wst[k, j] = ws[j, k]`, `wnt[k, j] = wn[j, k]`) and the bias as a row `brow` of shape [1, 128].
  The value it stores at (node p, feature q) is

      (Σ_k xb[p,k] · wst[k,q]  +  Σ_k nbb[p,k] · wnt[k,q])  +  brow[0,q].

  On the extended reals the roundings to the 16-bit format are the identity, a matrix product into a zero
  accumulator is the plain sum over the contracted axis, and the row broadcast reads row 0.
-/
import proofs.«101166_j80934363726330_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.Sage.Body

open Cert.KernelIdeal Cert.KernelIdeal.Gen Idealize.ShloMosaic Idealize.ShloMosaic.ValueIdx

/-- The contraction record of the block product: rows of a [5000,128] block against columns of a [128,128] matrix. -/
abbrev blockDot := dot_S5000x128_S128x128_S5000x128_1_0_0_1_n_n

theorem lhs_row (i : S5000x128.Idx) (q : blockDot.contr.Idx) : (blockDot.lhsIdx i q 0).val = (i 0).val := by
  unfold DotDims.lhsIdx
  rw [dif_neg (show ¬(0 : Fin S5000x128.rank) ∈ blockDot.lhsBatch by decide), dif_pos (show (0 : Fin S5000x128.rank) ∈ blockDot.lhsNonContracting by decide)]
  rfl
theorem lhs_contr (i : S5000x128.Idx) (q : blockDot.contr.Idx) : (blockDot.lhsIdx i q 1).val = (q ⟨0, by decide⟩).val :=
  blockDot.lhsIdx_val_of_single rfl i q
theorem rhs_contr (i : S5000x128.Idx) (q : blockDot.contr.Idx) : (blockDot.rhsIdx i q 0).val = (q ⟨0, by decide⟩).val :=
  blockDot.rhsIdx_val_of_single rfl i q
theorem rhs_col (i : S5000x128.Idx) (q : blockDot.contr.Idx) : (blockDot.rhsIdx i q 1).val = (i 1).val := by
  unfold DotDims.rhsIdx
  rw [dif_neg (show ¬(1 : Fin S128x128.rank) ∈ blockDot.rhsBatch by decide), dif_pos (show (1 : Fin S128x128.rank) ∈ blockDot.rhsNonContracting by decide)]
  rfl

/-- A block product into the zero accumulator, at (p, q): the sum over k of row p against column q. -/
theorem product_apply {φ₁ φ₂ : FTy} (a : FVec Ideal S5000x128 φ₁) (w : FVec Ideal S128x128 φ₂) (p : Fin 5000) (q : Fin 128) :
    matmul blockDot none a w (constant (F := Ideal) S5000x128 .f32 0x00000000#32) (ix2 p q)
      = ∑ k : Fin 128, a (ix2 p k) * w (ix2 k q) := by
  simp only [matmul]
  rw [Ideal.matmul_constant_zero_apply, ← Equiv.sum_comp (contrEquiv1 blockDot 128 rfl rfl).symm]
  refine Finset.sum_congr rfl fun k _ => ?_
  have hk := contrEquiv1_symm_val blockDot 128 rfl rfl k
  have el : blockDot.lhsIdx (ix2 p q) ((contrEquiv1 blockDot 128 rfl rfl).symm k) = ix2 p k := funext fun a => Fin.ext (by
    match a with
    | ⟨0, _⟩ => exact lhs_row _ _
    | ⟨1, _⟩ => exact (lhs_contr _ _).trans hk)
  have er : blockDot.rhsIdx (ix2 p q) ((contrEquiv1 blockDot 128 rfl rfl).symm k) = ix2 k q := funext fun a => Fin.ext (by
    match a with
    | ⟨0, _⟩ => exact (rhs_contr _ _).trans hk
    | ⟨1, _⟩ => exact rhs_col _ _)
  rw [el, er]

/-- The bias row broadcast down the block, at (p, q): the row's entry q. -/
theorem row_apply (brow : Vec Ideal S1x128 .f32) (p : Fin 5000) (q : Fin 128) :
    broadcastTo S5000x128 brow broadcasts_S1x128_S5000x128 (ix2 p q) = brow (ix2 (0 : Fin 1) q) :=
  broadcastTo_apply brow broadcasts_S1x128_S5000x128 (ix2 p q) (ix2 (0 : Fin 1) q) (fun a => match a with
    | ⟨0, _⟩ => by show 0 = if (1 : Nat) = 1 then 0 else _; rw [if_pos rfl]
    | ⟨1, _⟩ => by show q.val = if (128 : Nat) = 1 then 0 else q.val; rw [if_neg (by decide)])

/-- The stored value at (p, q). -/
theorem stored_apply (xb nbb : Vec Ideal S5000x128 .f32) (wst wnt : Vec Ideal S128x128 .f32) (brow : Vec Ideal S1x128 .f32)
    (p : Fin 5000) (q : Fin 128) :
    k0_pay1 (F := Ideal) xb nbb wst wnt brow (ix2 p q)
      = ((∑ k : Fin 128, xb (ix2 p k) * wst (ix2 k q)) + (∑ k : Fin 128, nbb (ix2 p k) * wnt (ix2 k q)))
        + brow (ix2 (0 : Fin 1) q) := by
  unfold k0_pay1
  rw [shapeCast_self, shapeCast_self, shapeCast_self, shapeCast_self]
  refine (addf_apply _ _ _).trans ?_
  refine congrArg₂ (· + ·) ((addf_apply _ _ _).trans (congrArg₂ (· + ·) ?_ ?_)) (row_apply brow p q)
  · exact product_apply _ _ p q
  · exact product_apply _ _ p q

end Cert.Sage.Body

end
-- ==== Proof.EntryArrays.lean ====
/-
  What the kernel's region finds in the four arrays that the host operations before it wrote.

  The host computes, before the one region: the neighbour mean (gather the source nodes' features, scatter-add them and
  a vector of ones into the destination nodes, divide the sums by the counts clipped below at one), the two weight
  matrices transposed, and the bias as a row. The neighbour mean is the very chain of operations the reference
  applies to the same two arguments, so it is named by the reference's own stage and never opened. A transposed
  weight at (k, j) is the weight at (j, k); the bias row at (0, j) is the bias at j.
-/
import proofs.«101166_j80934363726330_1_alg».proof.Proof.Gen.KernelIdeal.Frame
import proofs.«101166_j80934363726330_1_alg».proof.Proof.Gen.ReferenceIdeal.Read
import Idealize.ShloMosaic.Lib.StableHlo.Run
import Idealize.ShloMosaic.Lib.ValueIdx
import Idealize.ShloMosaic.Lib.Pipeline.Value

noncomputable section

namespace Cert.Sage.Entry

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

set_option maxHeartbeats 2000000 in
/-- The neighbour mean the region finds is the reference's neighbour-mean stage of the node features and the edge list:
    the same twenty-nine operations, in the same order, on the same two arguments. -/
theorem neigh_entry (c : Dev nD) :
    (V m c main_v22 : S100000x128.Idx → EReal)
      = Cert.ReferenceIdeal.Read.val_main_v22 (F := Ideal) (m ((c : Thread nD τ).loc main_arg0)) (m ((c : Thread nD τ).loc main_arg1)) := by
  dsimp only [V, hostOps0]
  after_results_simp
  all_goals rfl

/-- The first transposed weight matrix (of the self term) at (k, j) is the fourth argument at (j, k). -/
theorem wself_entry (c : Dev nD) (k j : Fin 128) :
    (V m c main_v23 : S128x128.Idx → EReal) (ix2 k j) = (m ((c : Thread nD τ).loc main_arg3) : S128x128.Idx → EReal) (ix2 j k) := by
  have e : (V m c main_v23 : S128x128.Idx → EReal)
      = transpose S128x128 [1, 0] (m ((c : Thread nD τ).loc main_arg3) : S128x128.Idx → EReal) transposes_S128x128_S128x128_1_0 := by
    dsimp only [V, hostOps0]
    after_results
  rw [e]
  exact transpose_apply [1, 0] _ transposes_S128x128_S128x128_1_0 (ix2 k j) (ix2 j k) (fun b => match b with
    | ⟨0, _⟩ => rfl
    | ⟨1, _⟩ => rfl)

/-- The second transposed weight matrix (of the neighbour term) at (k, j) is the third argument at (j, k). -/
theorem wneigh_entry (c : Dev nD) (k j : Fin 128) :
    (V m c main_v24 : S128x128.Idx → EReal) (ix2 k j) = (m ((c : Thread nD τ).loc main_arg2) : S128x128.Idx → EReal) (ix2 j k) := by
  have e : (V m c main_v24 : S128x128.Idx → EReal)
      = transpose S128x128 [1, 0] (m ((c : Thread nD τ).loc main_arg2) : S128x128.Idx → EReal) transposes_S128x128_S128x128_1_0 := by
    dsimp only [V, hostOps0]
    after_results
  rw [e]
  exact transpose_apply [1, 0] _ transposes_S128x128_S128x128_1_0 (ix2 k j) (ix2 j k) (fun b => match b with
    | ⟨0, _⟩ => rfl
    | ⟨1, _⟩ => rfl)

/-- The bias row at (0, j) is the bias at j. -/
theorem bias_entry (c : Dev nD) (j : Fin 128) :
    (V m c main_v25 : S1x128.Idx → EReal) (ix2 (0 : Fin 1) j) = (m ((c : Thread nD τ).loc main_arg4) : S128.Idx → EReal) (ix1 j) := by
  have e : (V m c main_v25 : S1x128.Idx → EReal)
      = shapeCast S1x128 (m ((c : Thread nD τ).loc main_arg4) : S128.Idx → EReal) shapeCasts_S128_S1x128 := by
    dsimp only [V, hostOps0]
    after_results
    rfl
  rw [e]
  exact shapeCast_apply _ shapeCasts_S128_S1x128 (ix2 (0 : Fin 1) j) (ix1 j)
    (by rewrite [Shape.rowMajor_val_two, Shape.rowMajor_val_one]; show j.val = 0 * 128 + j.val; omega)

end Cert.Sage.Entry

end
-- ==== Proof.CombineBlocks.lean ====
/-
  From the kernel's twenty blocks to the whole result array.

  Grid point `t` works on nodes `5000·t … 5000·t + 4999`: its two row windows (node features, neighbour means) and its
  output window sit at block row `t`, while the two weight matrices and the bias row are the same whole arrays at
  every point. So the entry (p, q) that point `t` stores is `combine` at node `r = 5000·t + p`, feature `q` (the stored
  value read entry by entry, each block entry read where its window puts it), the point writes back block `t` of
  `combine`, and since every node lies in exactly the block `r / 5000` the twenty blocks tile the array: after the run
  the result array is `combine` of the arguments.
-/
import proofs.«101166_j80934363726330_1_alg».proof.Proof.Gen.KernelIdeal.Value
import proofs.«101166_j80934363726330_1_alg».proof.Proof.CombineSpec
import proofs.«101166_j80934363726330_1_alg».proof.Proof.CombineBody
import proofs.«101166_j80934363726330_1_alg».proof.Proof.EntryArrays
import Idealize.ShloMosaic.Lib.Pipeline.Value

noncomputable section

namespace Cert.Sage.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The layer's result on core `c`: `combine` of the node features, the neighbour mean of the features along the
    edge list, the self and neighbour weight matrices and the bias, as the five arguments are launched. -/
abbrev layer (c : Dev nD) : S100000x128.Idx → EReal :=
  Cert.Sage.combine (m ((c : Thread nD τ).loc main_arg0))
    (Cert.ReferenceIdeal.Read.val_main_v22 (F := Ideal) (m ((c : Thread nD τ).loc main_arg0)) (m ((c : Thread nD τ).loc main_arg1)))
    (m ((c : Thread nD τ).loc main_arg3)) (m ((c : Thread nD τ).loc main_arg2)) (m ((c : Thread nD τ).loc main_arg4))

/-- The printed index maps, decided over the twenty points: the two row windows and the output window are at block
    row `t`, column block 0; the weights and the bias row are at block (0, 0). -/
theorem block_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Every block row of the result is some point's. -/
theorem block_onto : ∀ q0 : Fin 20, ∃ t : Fin cfg0.N, win0_5.index t (0 : Fin 2) = q0.val :=
  (by decide +kernel : ∀ q0 : Fin 20, ∃ t : Fin grid0.N, win0_5.index t (0 : Fin 2) = q0.val)

/-! ## Each window's block entry, read where the window puts it -/

/-- Entry (p, k) of point `t`'s block of node features is the feature array at node `5000·t + p`. -/
theorem x_block (c : Dev nD) (t : Fin cfg0.N) (p : Fin 5000) (k : Fin 128) (r : Fin 100000) (hr : r.val = t.val * 5000 + p.val) :
    (iblk m c 0 t : Vec Ideal S5000x128 .f32) (ix2 p k) = (m ((c : Thread nD τ).loc main_arg0) : S100000x128.Idx → EReal) (ix2 r k) := by
  unfold iblk
  rw [View.read_apply]
  show V m c main_arg0 _ = _
  rw [V_main_arg0]
  refine congrArg _ (funext fun a => Fin.ext ?_)
  obtain ⟨e0, e1, -⟩ := block_rows t
  match a with
  | ⟨0, _⟩ => show win0_0.index t (0 : Fin 2) * 5000 + 1 * p.val = r.val; rw [e0, hr]; omega
  | ⟨1, _⟩ => show win0_0.index t (1 : Fin 2) * 128 + 1 * k.val = k.val; rw [e1]; omega

/-- Entry (p, k) of point `t`'s block of neighbour means is the neighbour mean at node `5000·t + p`. -/
theorem neigh_block (c : Dev nD) (t : Fin cfg0.N) (p : Fin 5000) (k : Fin 128) (r : Fin 100000) (hr : r.val = t.val * 5000 + p.val) :
    (iblk m c 1 t : Vec Ideal S5000x128 .f32) (ix2 p k)
      = Cert.ReferenceIdeal.Read.val_main_v22 (F := Ideal) (m ((c : Thread nD τ).loc main_arg0)) (m ((c : Thread nD τ).loc main_arg1)) (ix2 r k) := by
  unfold iblk
  rw [View.read_apply]
  show (V m c main_v22 : S100000x128.Idx → EReal) _ = _
  rw [Cert.Sage.Entry.neigh_entry]
  refine congrArg _ (funext fun a => Fin.ext ?_)
  obtain ⟨-, -, e0, e1, -⟩ := block_rows t
  match a with
  | ⟨0, _⟩ => show win0_1.index t (0 : Fin 2) * 5000 + 1 * p.val = r.val; rw [e0, hr]; omega
  | ⟨1, _⟩ => show win0_1.index t (1 : Fin 2) * 128 + 1 * k.val = k.val; rw [e1]; omega

/-- Entry (k, q) of the self weights' block, at every point, is the self weight matrix at (q, k). -/
theorem wself_block (c : Dev nD) (t : Fin cfg0.N) (k q : Fin 128) :
    (iblk m c 2 t : Vec Ideal S128x128 .f32) (ix2 k q) = (m ((c : Thread nD τ).loc main_arg3) : S128x128.Idx → EReal) (ix2 q k) := by
  unfold iblk
  rw [View.read_apply]
  show (V m c main_v23 : S128x128.Idx → EReal) _ = _
  refine Eq.trans (congrArg _ (funext fun a => Fin.ext ?_)) (Cert.Sage.Entry.wself_entry m c k q)
  obtain ⟨-, -, -, -, e0, e1, -⟩ := block_rows t
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- Entry (k, q) of the neighbour weights' block, at every point, is the neighbour weight matrix at (q, k). -/
theorem wneigh_block (c : Dev nD) (t : Fin cfg0.N) (k q : Fin 128) :
    (iblk m c 3 t : Vec Ideal S128x128 .f32) (ix2 k q) = (m ((c : Thread nD τ).loc main_arg2) : S128x128.Idx → EReal) (ix2 q k) := by
  unfold iblk
  rw [View.read_apply]
  show (V m c main_v24 : S128x128.Idx → EReal) _ = _
  refine Eq.trans (congrArg _ (funext fun a => Fin.ext ?_)) (Cert.Sage.Entry.wneigh_entry m c k q)
  obtain ⟨-, -, -, -, -, -, e0, e1, -⟩ := block_rows t
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- Entry (0, q) of the bias row's block, at every point, is the bias at q. -/
theorem bias_block (c : Dev nD) (t : Fin cfg0.N) (q : Fin 128) :
    (iblk m c 4 t : Vec Ideal S1x128 .f32) (ix2 (0 : Fin 1) q) = (m ((c : Thread nD τ).loc main_arg4) : S128.Idx → EReal) (ix1 q) := by
  unfold iblk
  rw [View.read_apply]
  show (V m c main_v25 : S1x128.Idx → EReal) _ = _
  refine Eq.trans (congrArg _ (funext fun a => Fin.ext ?_)) (Cert.Sage.Entry.bias_entry m c q)
  obtain ⟨-, -, -, -, -, -, -, -, e0, e1, -⟩ := block_rows t
  match a with
  | ⟨0, _⟩ => show win0_4.index t (0 : Fin 2) * 1 + 1 * 0 = 0; rw [e0]
  | ⟨1, _⟩ => show win0_4.index t (1 : Fin 2) * 128 + 1 * q.val = q.val; rw [e1]; omega

/-! ## What a point stores, what it writes back, and the whole array -/

/-- The entry (p, q) that point `t` stores is the layer's result at node `5000·t + p`, feature `q`. -/
theorem point_entry (c : Dev nD) (t : Fin cfg0.N) (p : Fin 5000) (q : Fin 128) (r : Fin 100000) (hr : r.val = t.val * 5000 + p.val) :
    k0_pay1 (F := Ideal) (iblk m c 0 t) (iblk m c 1 t) (iblk m c 2 t) (iblk m c 3 t) (iblk m c 4 t) (ix2 p q)
      = layer m c (ix2 r q) := by
  refine (Cert.Sage.Body.stored_apply (iblk m c 0 t) (iblk m c 1 t) (iblk m c 2 t) (iblk m c 3 t) (iblk m c 4 t) p q).trans ?_
  unfold layer Cert.Sage.combine
  exact congrArg₂ (· + ·)
    (congrArg₂ (· + ·)
      (Finset.sum_congr rfl fun k _ => congrArg₂ (· * ·) (x_block m c t p k r hr) (wself_block m c t k q))
      (Finset.sum_congr rfl fun k _ => congrArg₂ (· * ·) (neigh_block m c t p k r hr) (wneigh_block m c t k q)))
    (bias_block m c t q)

/-- WHAT POINT `t` WRITES BACK is block `t` of the layer's result: its one store leaves the stored value in the whole
    staging buffer, and the buffer's entry (p, q) goes to node `5000·t + p`, feature `q`. -/
theorem flushed_eq (c : Dev nD) (t : Fin cfg0.N) :
    (dats m 0 c).flushed 5 t = ((cfg0.win 5).blk t).view.read (Elt Ideal) (layer m c) := by
  rw [Cert.KernelIdeal.Value.flushed5 m c t]
  unfold out0_5
  rw [View.canon_unit_zero hz]
  simp only [View.ld_unit_zero (S := S5000x128) hz, View.ld_unit_zero (S := S128x128) hz, View.ld_unit_zero (S := S1x128) hz]
  refine funext fun (y : S5000x128.Idx) => ?_
  obtain ⟨p, q, rfl⟩ : ∃ (p : Fin 5000) (q : Fin 128), y = ix2 p q := ⟨y 0, y 1, eq_ix2 y⟩
  have ht : t.val < 20 := lt_of_lt_of_eq t.isLt N_0
  have hp : p.val < 5000 := p.isLt
  obtain ⟨-, -, -, -, -, -, -, -, -, -, e0, e1⟩ := block_rows t
  have he : ((cfg0.win 5).blk t).view.emb (ix2 p q) = ix2 (⟨t.val * 5000 + p.val, by omega⟩ : Fin 100000) q :=
    funext fun a => Fin.ext (by
      match a with
      | ⟨0, _⟩ => show win0_5.index t (0 : Fin 2) * 5000 + 1 * p.val = t.val * 5000 + p.val; rw [e0]; omega
      | ⟨1, _⟩ => show win0_5.index t (1 : Fin 2) * 128 + 1 * q.val = q.val; rw [e1]; omega)
  show k0_pay1 (F := Ideal) (iblk m c 0 t) (iblk m c 1 t) (iblk m c 2 t) (iblk m c 3 t) (iblk m c 4 t) (ix2 p q)
    = layer m c (((cfg0.win 5).blk t).view.emb (ix2 p q))
  rw [he]
  exact point_entry m c t p q _ rfl

/-- A node index is in point `t`'s output block iff each coordinate is in the block's range on its axis. -/
theorem mem_block (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v26).slice (win0_5.rect t)).set ↔ _
  rw [View.set_slice_whole, Rect.mem_set_unit]
  exact Iff.rfl

/-- The twenty blocks tile the result: node `r` is in the block of the point at block row `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := block_onto ⟨(i 0).val / 5000, by omega⟩
  have q0 : win0_5.index t (0 : Fin 2) = (i 0).val / 5000 := ht
  obtain ⟨-, -, -, -, -, -, -, -, -, -, -, e1⟩ := block_rows t
  refine ⟨t, flush0_5 t, ?_⟩
  rw [mem_block]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE RESULT ARRAY after the run is the layer's result. -/
theorem final (c : Dev nD) : (dats m 0 c).arrAt 5 cfg0.N = layer m c :=
  (dats m 0 c).arrAt_eq_of_cover 5 (layer m c) (fun t _ => flushed_eq m c t) covered

/-- The kernel's run, read: the result array at the layer's result, the five arguments unchanged. -/
theorem run : θ_run defs (onTc (τ := τ) (main (F := Ideal))) ⟨m, fun _ => 0, ρ⟩ fun r => ∀ c : Dev nD,
      r.2.mem ((c : Thread nD τ).loc main_v26) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.Sage.Blocks

end
-- ==== Proof.ReferenceCombine.lean ====
/-
  The reference's last stage is `combine`.

  The reference forms `x · wsᵀ` as a sum over the input feature `k` of `x[i,k] · wsᵀ[k,j]`, adds the bias broadcast
  down the nodes, then adds `nb · wnᵀ`, where `nb` is its stage that divides the scattered neighbour sums by the
  clipped neighbour counts. Read at (i, j): a transposed weight at (k, j) is the weight at (j, k), the broadcast bias at
  (i, j) is `b[j]`, and moving the bias past the neighbour term gives `combine`. The neighbour stage is carried as
  it stands: nothing here looks inside it.
-/
import proofs.«101166_j80934363726330_1_alg».proof.Proof.Gen.ReferenceIdeal.Read
import proofs.«101166_j80934363726330_1_alg».proof.Proof.CombineSpec

noncomputable section

namespace Cert.Sage.Ref

open Cert.ReferenceIdeal Cert.ReferenceIdeal.Read Idealize.ShloMosaic Idealize.ShloMosaic.ValueIdx

/-- Row i of the left operand, column k. -/
theorem left_self (i : S100000x128.Idx) (k : Fin 128) : lidx_main_v24 i k = ix2 (i 0) k :=
  funext fun a => Fin.ext (by match a with | ⟨0, _⟩ => rfl | ⟨1, _⟩ => rfl)
theorem left_neigh (i : S100000x128.Idx) (k : Fin 128) : lidx_main_v29 i k = ix2 (i 0) k :=
  funext fun a => Fin.ext (by match a with | ⟨0, _⟩ => rfl | ⟨1, _⟩ => rfl)
/-- The transposed weight at (k, j) is the weight at (j, k). -/
theorem right_self (i : S100000x128.Idx) (k : Fin 128) : idx_main_v23 (ridx_main_v24 i k) = ix2 (i 1) k :=
  funext fun a => Fin.ext (by match a with | ⟨0, _⟩ => rfl | ⟨1, _⟩ => rfl)
theorem right_neigh (i : S100000x128.Idx) (k : Fin 128) : idx_main_v28 (ridx_main_v29 i k) = ix2 (i 1) k :=
  funext fun a => Fin.ext (by match a with | ⟨0, _⟩ => rfl | ⟨1, _⟩ => rfl)
/-- The bias broadcast to a row and then down the nodes, at (i, j), is entry j. -/
theorem bias_entry (i : S100000x128.Idx) : idx_main_v25 (idx_main_v26 i) = ix1 (i 1) :=
  funext fun a => Fin.ext (by match a with | ⟨0, _⟩ => rfl)

/-- The reference's result stage, as a function of its five arguments, is `combine` of the node features, its own
    neighbour-mean stage, the two weight matrices and the bias. -/
theorem result_eq (x0 : (⟨S100000x128, .f32⟩ : BufTy).Contents (Elt Ideal)) (x1 : (⟨S2x625000, .i32⟩ : BufTy).Contents (Elt Ideal))
    (x2 x3 : (⟨S128x128, .f32⟩ : BufTy).Contents (Elt Ideal)) (x4 : (⟨S128, .f32⟩ : BufTy).Contents (Elt Ideal)) :
    val_main_v30 (F := Ideal) x0 x1 x2 x3 x4 = Cert.Sage.combine x0 (val_main_v22 (F := Ideal) x0 x1) x3 x2 x4 := by
  funext i
  rw [val_main_v30_apply, val_main_v27_apply, val_main_v24_apply, val_main_v29_apply, val_main_v26_apply, val_main_v25_apply]
  simp only [val_main_v23_apply, val_main_v28_apply, left_self, left_neigh, right_self, right_neigh, bias_entry]
  exact Cert.Sage.bias_then_neigh _ _ _

end Cert.Sage.Ref

end
-- ==== Proof.lean ====
/-
  A graph layer with mean aggregation: for every node, its own features through one linear map, the mean of its
  incoming neighbours' features through another, and a bias,

      out[i, j] = Σ_k x[i,k] · W_self[j,k]  +  Σ_k neigh[i,k] · W_neigh[j,k]  +  b[j],
      neigh[i, :] = (Σ over edges (s → i) of x[s, :]) / max(number of edges into i, 1).

  Both programs compute `neigh` by the same host operations (gather the sources' features, scatter-add them and a vector
  of ones into the destinations, divide by the clipped counts). The kernel then takes the nodes in twenty blocks of
  5000: a block's two products against the transposed weight matrices are added to each other and then to the bias
  row. The reference forms `x · W_selfᵀ`, adds the bias, then adds `neigh · W_neighᵀ`. On the extended reals a
  product into a zero accumulator is the plain sum over the contracted axis and the roundings to the 16-bit format
  are the identity, so at every (i, j) the two results are the same three extended reals added in two different
  orders; addition there is commutative and associative whatever the summands, so the inputs' finiteness is not used.

  The three frames: the two kernel programs' runs terminate without a fault and leave the arguments as they were
  (their generated frame proofs), and the reference's run does (its generated run, the result dropped). The kernel's
  idealization rewrote no operation, so there is nothing to preserve beyond `True`. The equivalence sets the kernel's
  run, whose result array is `Cert.Sage.combine` of the arguments block by block, beside the reference's run, whose
  last stage is the same function of the same arguments.
-/
import proofs.«101166_j80934363726330_1_alg».proof.Defs
import proofs.«101166_j80934363726330_1_alg».proof.Proof.Gen.Kernel
import proofs.«101166_j80934363726330_1_alg».proof.Proof.Gen.Kernel.Frame
import proofs.«101166_j80934363726330_1_alg».proof.Proof.Gen.KernelIdeal
import proofs.«101166_j80934363726330_1_alg».proof.Proof.Gen.KernelIdeal.Frame
import proofs.«101166_j80934363726330_1_alg».proof.Proof.Gen.KernelIdeal.Value
import proofs.«101166_j80934363726330_1_alg».proof.Proof.Gen.ReferenceIdeal
import proofs.«101166_j80934363726330_1_alg».proof.Proof.Gen.ReferenceIdeal.Run
import proofs.«101166_j80934363726330_1_alg».proof.Proof.Gen.ReferenceIdeal.Read
import proofs.«101166_j80934363726330_1_alg».proof.Proof.Gen.Pre_finite_inputs
import proofs.«101166_j80934363726330_1_alg».proof.Proof.CombineBlocks
import proofs.«101166_j80934363726330_1_alg».proof.Proof.ReferenceCombine

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- The reference is host operations only: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized. -/
theorem preserves : Cert.preserves_Kernel_KernelIdeal := trivial

/-- From memories that agree on the five arguments both programs end with the layer's result: the kernel's array
    is `combine` of the arguments (its twenty blocks tile it), and the reference's last stage is `combine` of the same
    arrays with the bias added before the neighbour term instead of after it. -/
theorem algebraic : Cert.algebraic_KernelIdeal_ReferenceIdeal := by
  intro m ρ m' ρ' _ hagree
  refine ⟨fun c => Cert.Sage.Blocks.layer m c, Cert.Sage.Blocks.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4⟩ := hagree c
  rw [Cert.ReferenceIdeal.Read.val_main_v30_eq, Cert.Sage.Ref.result_eq, a0, a1, a2, a3, a4]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
